-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel

variable [Facts]

def fn {F : FTy → Type} [FloatOps F] (main_arg0 : FVec F S4096x200x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  main_v3
-- ==== Kernel.lean ====
abbrev S4096x200x64 : Shape := ⟨3, ![4096, 200, 64]⟩
abbrev S4096x100x128 : Shape := ⟨3, ![4096, 100, 128]⟩
abbrev S4096x512 : Shape := ⟨2, ![4096, 512]⟩
abbrev S128x100x128 : Shape := ⟨3, ![128, 100, 128]⟩
abbrev S128x512 : Shape := ⟨2, ![128, 512]⟩
abbrev S128x128 : Shape := ⟨2, ![128, 128]⟩
abbrev S128x12x128 : Shape := ⟨3, ![128, 12, 128]⟩
abbrev S128x1x128 : Shape := ⟨3, ![128, 1, 128]⟩
abbrev S128x25x128 : Shape := ⟨3, ![128, 25, 128]⟩
abbrev S128x64 : Shape := ⟨2, ![128, 64]⟩

abbrev nBuf : Space → Nat
  | .hbm => 3
  | .vmem => 4
  | .smem => 0
  | _ => 0

abbrev bufTy : (tb : Table) → Fin (tcTables nBuf tb) → BufTy
  | .hbm, ⟨0, _⟩ => ⟨S4096x200x64, .f32⟩
  | .hbm, ⟨1, _⟩ => ⟨S4096x100x128, .f32⟩
  | .hbm, ⟨2, _⟩ => ⟨S4096x512, .f32⟩
  | .local _ .vmem, ⟨0, _⟩ => ⟨S128x100x128, .f32⟩
  | .local _ .vmem, ⟨1, _⟩ => ⟨S128x100x128, .f32⟩
  | .local _ .vmem, ⟨2, _⟩ => ⟨S128x512, .f32⟩
  | .local _ .vmem, ⟨3, _⟩ => ⟨S128x512, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x100x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x200x64_S4096x100x128 : S4096x200x64.ShapeCasts S4096x100x128
  iota_S128x128_d1_w32 : S128x128.Iotas .tc 32 [1]
  inb_S128x100x128_S128x12x128_0_0_0 : ∀ a, (![0, 0, 0] : Fin 3 → Nat) a + S128x12x128.size a ≤ S128x100x128.size a
  h_S128x12x128 : 0 < S128x12x128.numel
  shapeCasts_S128x12x128_S128x12x128 : S128x12x128.ShapeCasts S128x12x128
  reduces_S128x12x128_S128x128 : S128x12x128.Reduces [1] S128x128
  inb_S128x100x128_S128x1x128_0_12_0 : ∀ a, (![0, 12, 0] : Fin 3 → Nat) a + S128x1x128.size a ≤ S128x100x128.size a
  h_S128x1x128 : 0 < S128x1x128.numel
  shapeCasts_S128x1x128_S128x1x128 : S128x1x128.ShapeCasts S128x1x128
  reduces_S128x1x128_S128x128 : S128x1x128.Reduces [1] S128x128
  inb_S128x100x128_S128x12x128_0_13_0 : ∀ a, (![0, 13, 0] : Fin 3 → Nat) a + S128x12x128.size a ≤ S128x100x128.size a
  inb_S128x100x128_S128x12x128_0_25_0 : ∀ a, (![0, 25, 0] : Fin 3 → Nat) a + S128x12x128.size a ≤ S128x100x128.size a
  inb_S128x100x128_S128x1x128_0_37_0 : ∀ a, (![0, 37, 0] : Fin 3 → Nat) a + S128x1x128.size a ≤ S128x100x128.size a
  inb_S128x100x128_S128x12x128_0_38_0 : ∀ a, (![0, 38, 0] : Fin 3 → Nat) a + S128x12x128.size a ≤ S128x100x128.size a
  inb_S128x100x128_S128x25x128_0_50_0 : ∀ a, (![0, 50, 0] : Fin 3 → Nat) a + S128x25x128.size a ≤ S128x100x128.size a
  h_S128x25x128 : 0 < S128x25x128.numel
  shapeCasts_S128x25x128_S128x25x128 : S128x25x128.ShapeCasts S128x25x128
  reduces_S128x25x128_S128x128 : S128x25x128.Reduces [1] S128x128
  inb_S128x100x128_S128x12x128_0_75_0 : ∀ a, (![0, 75, 0] : Fin 3 → Nat) a + S128x12x128.size a ≤ S128x100x128.size a
  inb_S128x100x128_S128x1x128_0_87_0 : ∀ a, (![0, 87, 0] : Fin 3 → Nat) a + S128x1x128.size a ≤ S128x100x128.size a
  inb_S128x100x128_S128x12x128_0_88_0 : ∀ a, (![0, 88, 0] : Fin 3 → Nat) a + S128x12x128.size a ≤ S128x100x128.size a
  slices_S128x128_o0_0_S128x64 : S128x128.Slices ![0, 0] S128x64
  slices_S128x128_o0_64_S128x64 : S128x128.Slices ![0, 64] S128x64
  concatenates_S128x64_S128x64_S128x64_S128x64_S128x64_S128x64_S128x64_S128x64_S128x512_d1 : Shape.Concatenates [S128x64, S128x64, S128x64, S128x64, S128x64, S128x64, S128x64, S128x64] S128x512 1
  inb_S128x512_S128x512_0_0 : ∀ a, (![0, 0] : Fin 2 → Nat) a + S128x512.size a ≤ S128x512.size a
  h_S128x512 : 0 < S128x512.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x100x128.size a ≤ S4096x100x128.size a
  hwx0_0 : ∀ i : grid0.Coords, EltTy.bits .f32 = 32 ∨ (Rect.block (s := S4096x100x128) S128x100x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x512.size a
  hwx0_1 : ∀ i : grid0.Coords, EltTy.bits .f32 = 32 ∨ (Rect.block (s := S4096x512) S128x512.size (cc0_transform_1 i) (hinb0_1 i)).WholeWords (EltTy.packing .f32)

variable [Facts₀]

abbrev win0_0 : Pipeline.Window sig grid0 :=
  Pipeline.Window.ofSpec (Memref.whole main_v0) S128x100x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S4096x50x64 : Shape := ⟨3, ![4096, 50, 64]⟩
abbrev S_ : Shape := ⟨0, ![]⟩
abbrev S4096x64 : Shape := ⟨2, ![4096, 64]⟩
abbrev S4096x75x64 : Shape := ⟨3, ![4096, 75, 64]⟩
abbrev S4096x100x64 : Shape := ⟨3, ![4096, 100, 64]⟩
abbrev S4096x512 : Shape := ⟨2, ![4096, 512]⟩

abbrev nBuf : Space → Nat
  | .hbm => 25
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S4096x50x64, .f32⟩
  | .hbm, ⟨2, _⟩ => ⟨S_, .f32⟩
  | .hbm, ⟨3, _⟩ => ⟨S4096x64, .f32⟩
  | .hbm, ⟨4, _⟩ => ⟨S4096x75x64, .f32⟩
  | .hbm, ⟨5, _⟩ => ⟨S_, .f32⟩
  | .hbm, ⟨6, _⟩ => ⟨S4096x64, .f32⟩
  | .hbm, ⟨7, _⟩ => ⟨S4096x100x64, .f32⟩
  | .hbm, ⟨8, _⟩ => ⟨S_, .f32⟩
  | .hbm, ⟨9, _⟩ => ⟨S4096x64, .f32⟩
  | .hbm, ⟨10, _⟩ => ⟨S_, .f32⟩
  | .hbm, ⟨11, _⟩ => ⟨S4096x64, .f32⟩
  | .hbm, ⟨12, _⟩ => ⟨S4096x100x64, .f32⟩
  | .hbm, ⟨13, _⟩ => ⟨S_, .f32⟩
  | .hbm, ⟨14, _⟩ => ⟨S4096x64, .f32⟩
  | .hbm, ⟨15, _⟩ => ⟨S4096x50x64, .f32⟩
  | .hbm, ⟨16, _⟩ => ⟨S_, .f32⟩
  | .hbm, ⟨17, _⟩ => ⟨S4096x64, .f32⟩
  | .hbm, ⟨18, _⟩ => ⟨S4096x100x64, .f32⟩
  | .hbm, ⟨19, _⟩ => ⟨S_, .f32⟩
  | .hbm, ⟨20, _⟩ => ⟨S4096x64, .f32⟩
  | .hbm, ⟨21, _⟩ => ⟨S4096x100x64, .f32⟩
  | .hbm, ⟨22, _⟩ => ⟨S_, .f32⟩
  | .hbm, ⟨23, _⟩ => ⟨S4096x64, .f32⟩
  | .hbm, ⟨24, _⟩ => ⟨S4096x512, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_cst_2 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_cst_4 : Ref sig .tc := ⟨.hbm, 16, rfl⟩
abbrev main_v10 : Ref sig .tc := ⟨.hbm, 17, rfl⟩
abbrev main_v11 : Ref sig .tc := ⟨.hbm, 18, rfl⟩
abbrev main_cst_5 : Ref sig .tc := ⟨.hbm, 19, rfl⟩
abbrev main_v12 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  slices_S4096x200x64_S4096x50x64_0_0_0 : S4096x200x64.Slices ![0, 0, 0] S4096x50x64
  reducesTo_S4096x50x64_S4096x64_d1 : S4096x50x64.ReducesTo [1] S4096x64
  h_S_ : 0 < S_.numel
  slices_S4096x200x64_S4096x75x64_0_25_0 : S4096x200x64.Slices ![0, 25, 0] S4096x75x64
  reducesTo_S4096x75x64_S4096x64_d1 : S4096x75x64.ReducesTo [1] S4096x64
  slices_S4096x200x64_S4096x100x64_0_50_0 : S4096x200x64.Slices ![0, 50, 0] S4096x100x64
  reducesTo_S4096x100x64_S4096x64_d1 : S4096x100x64.ReducesTo [1] S4096x64
  reducesTo_S4096x200x64_S4096x64_d1 : S4096x200x64.ReducesTo [1] S4096x64
  slices_S4096x200x64_S4096x100x64_0_100_0 : S4096x200x64.Slices ![0, 100, 0] S4096x100x64
  slices_S4096x200x64_S4096x50x64_0_150_0 : S4096x200x64.Slices ![0, 150, 0] S4096x50x64
  slices_S4096x200x64_S4096x100x64_0_0_0 : S4096x200x64.Slices ![0, 0, 0] S4096x100x64
  slices_S4096x200x64_S4096x100x64_0_75_0 : S4096x200x64.Slices ![0, 75, 0] S4096x100x64
  concatenates_S4096x64_S4096x64_S4096x64_S4096x64_S4096x64_S4096x64_S4096x64_S4096x64_S4096x512_d1 : Shape.Concatenates [S4096x64, S4096x64, S4096x64, S4096x64, S4096x64, S4096x64, S4096x64, S4096x64] S4096x512 1

variable [Facts₀]

class Facts : Prop extends Facts₀ where

variable [Facts]
-- ==== Proof.SliceSpec.lean ====
/-
  What both programs compute. The argument is an array X of shape [4096, 200, 64] (batch, row, column); the result
  has shape [4096, 512]: eight bands of 64 columns. Band j at (b, 64 j + c) is the sum of X (b, r, c) over the
  rows r of the j-th row range [lo j, hi j). The eight ranges overlap; they are unions of the seven consecutive
  segments cut at rows 0, 25, 50, 75, 100, 150, 175, 200.
-/
import Idealize.ShloMosaic.PureOps.Ideal
import Idealize.ShloMosaic.Lib.ValueIdx

noncomputable section

namespace Cert.SliceSum

open Idealize.ShloMosaic Idealize.ShloMosaic.ValueIdx

/-- The first row of band `j`'s row range. -/
def lo : ℕ → ℕ
  | 0 => 0 | 1 => 25 | 2 => 50 | 3 => 0 | 4 => 100 | 5 => 150 | 6 => 0 | 7 => 75 | _ => 0

/-- One past the last row of band `j`'s row range. -/
def hi : ℕ → ℕ
  | 0 => 50 | 1 => 100 | 2 => 150 | 3 => 200 | 4 => 200 | 5 => 200 | 6 => 100 | 7 => 175 | _ => 0

/-- The argument's shape and the result's. -/
abbrev SX : Shape := ⟨3, ![4096, 200, 64]⟩
abbrev SY : Shape := ⟨2, ![4096, 512]⟩

/-- Column `c` of batch `b` as a sequence of rows, zero past the last row. -/
def rowAt (X : SX.Idx → EReal) (b : Fin 4096) (c : Fin 64) (r : ℕ) : EReal :=
  if h : r < 200 then X (ix3 b ⟨r, h⟩ c) else 0

/-- The result as one function of the argument, index by index: at (b, q) the sum over the rows of band `q / 64`'s
    range of column `q % 64` of batch `b`. -/
def G (X : SX.Idx → EReal) : SY.Idx → EReal := fun i =>
  ∑ r ∈ Finset.Ico (lo ((i 1).val / 64)) (hi ((i 1).val / 64)),
    rowAt X (i 0) ⟨(i 1).val % 64, Nat.mod_lt _ (by norm_num)⟩ r

end Cert.SliceSum

end
-- ==== Proof.BlockStatement.lean ====
/-
  The statement about ONE block of the kernel, which the block-level algebra proves and the passage from blocks to
  the whole array uses. A block B has shape [128, 100, 128]: for a batch row p, packed row k holds original row 2k in
  lanes 0..63 and original row 2k+1 in lanes 64..127. If, for a fixed p and column c, the block's entries are the
  terms of a sequence f (entry (p, k, 64 h + c) is f (2 k + h)), then what the body leaves at (p, 64 j + c) is the sum
  of f over band j's row range.
-/
import proofs.«143137_j39462159515841_2_alg».proof.Proof.Gen.KernelIdeal.Frame
import proofs.«143137_j39462159515841_2_alg».proof.Proof.SliceSpec

noncomputable section

namespace Cert.SliceSum

open Idealize.ShloMosaic Idealize.ShloMosaic.ValueIdx Cert.KernelIdeal Cert.KernelIdeal.Gen

/-- What the body leaves in the output block, entry by entry, in terms of a row sequence the input block holds. -/
def BlockValue : Prop :=
  ∀ (B : Vec Ideal S128x100x128 .f32) (p : Fin 128) (j : Fin 8) (c : Fin 64) (f : ℕ → EReal),
    (∀ (k : Fin 100) (h : Fin 2), B (ix3 p k ⟨64 * h.val + c.val, by omega⟩) = f (2 * k.val + h.val)) →
    out0_1 (F := Ideal) B (ix2 p ⟨64 * j.val + c.val, by omega⟩) = ∑ r ∈ Finset.Ico (lo j.val) (hi j.val), f r

end Cert.SliceSum

end
-- ==== Proof.SegmentValue.lean ====
/-
  One segment's packed partial sum, read at an entry. The body loads, from the block [128, 100, 128], a run of
  whole packed rows [128, n, 128] and, where the segment starts or ends in the middle of a pair, the straddling
  packed row [128, 1, 128]; it sums each over its middle axis and keeps, of the straddling row, the lanes 0..63
  (the pair's even row) or the lanes 64..127 (its odd row), a zero in the other lanes. At (p, l) the result is the
  sum over k of the run at (p, k, l), plus the straddling row's entry at (p, 0, l) when lane l is on the kept side.
-/
import proofs.«143137_j39462159515841_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.SliceSum.Seg

open Idealize.ShloMosaic Idealize.ShloMosaic.ValueIdx Cert.KernelIdeal Cert.KernelIdeal.Gen

/-- The lane mask at (p, l) is the bit of `l < 64`. -/
theorem mask_apply (p : Fin 128) (l : Fin 128) :
    k0_pay2 (ix2 p l) = if l.val < 64 then 1#1 else 0#1 := by
  unfold k0_pay2
  show IntOp.cmpi .slt (iota .tc S128x128 32 [1] iota_S128x128_d1_w32 (ix2 p l)) 64#32 = _
  rw [iota_single_apply]
  show IntOp.cmpi .slt (BitVec.ofNat 32 l.val) 64#32 = _
  obtain ⟨l, hl⟩ := l
  interval_cases l <;> rfl

/-- A sum over the middle axis of a [128, n, 128] vector from the zero word, at (p, l): the sum over k of the
    entries (p, k, l). -/
theorem laneSum12 (P : Vec Ideal S128x12x128 .f32) (p l : Fin 128) :
    multiReduction (F := Ideal) .add [1] S128x128 P 0x00000000#32 reduces_S128x12x128_S128x128 (.inl rfl) rfl (ix2 p l)
      = ∑ k : Fin 12, P (ix3 p k l) := by
  refine (Ideal.multiReduction_add_single P 0x00000000#32 reduces_S128x12x128_S128x128 (.inl rfl) rfl (ix2 p l)).trans ?_
  refine Finset.sum_congr rfl fun k _ => congrArg P ?_
  exact funext fun a => Fin.ext (by match a with | ⟨0, _⟩ => rfl | ⟨1, _⟩ => rfl | ⟨2, _⟩ => rfl)

theorem laneSum25 (P : Vec Ideal S128x25x128 .f32) (p l : Fin 128) :
    multiReduction (F := Ideal) .add [1] S128x128 P 0x00000000#32 reduces_S128x25x128_S128x128 (.inl rfl) rfl (ix2 p l)
      = ∑ k : Fin 25, P (ix3 p k l) := by
  refine (Ideal.multiReduction_add_single P 0x00000000#32 reduces_S128x25x128_S128x128 (.inl rfl) rfl (ix2 p l)).trans ?_
  refine Finset.sum_congr rfl fun k _ => congrArg P ?_
  exact funext fun a => Fin.ext (by match a with | ⟨0, _⟩ => rfl | ⟨1, _⟩ => rfl | ⟨2, _⟩ => rfl)

/-- A sum over a middle axis of extent one is the one entry. -/
theorem laneSum1 (Q : Vec Ideal S128x1x128 .f32) (p l : Fin 128) :
    multiReduction (F := Ideal) .add [1] S128x128 Q 0x00000000#32 reduces_S128x1x128_S128x128 (.inl rfl) rfl (ix2 p l)
      = Q (ix3 p 0 l) := by
  refine (Ideal.multiReduction_add_single Q 0x00000000#32 reduces_S128x1x128_S128x128 (.inl rfl) rfl (ix2 p l)).trans ?_
  show (∑ k : Fin 1, Q (reduces_S128x1x128_S128x128.lift (ix2 p l) k)) = _
  rw [Fin.sum_univ_one]
  refine congrArg Q ?_
  exact funext fun a => Fin.ext (by match a with | ⟨0, _⟩ => rfl | ⟨1, _⟩ => rfl | ⟨2, _⟩ => rfl)

/-- A segment that ENDS in the middle of a pair keeps the straddling pair's even row: lanes 0..63. -/
theorem keepEven_apply (P : Vec Ideal S128x12x128 .f32) (Q : Vec Ideal S128x1x128 .f32) (p l : Fin 128) :
    k0_pay3 (F := Ideal) P Q (ix2 p l) = (∑ k : Fin 12, P (ix3 p k l)) + if l.val < 64 then Q (ix3 p 0 l) else 0 := by
  unfold k0_pay3
  dsimp only
  rw [addf_apply, select_apply, broadcast_apply, shapeCast_self, shapeCast_self, laneSum12, laneSum1, mask_apply]
  refine congrArg (_ + ·) ?_
  by_cases h : l.val < 64
  · rw [if_pos h, if_pos h]; rfl
  · rw [if_neg h, if_neg h]; exact Ideal.ofBits_zero_f32

/-- A segment that STARTS in the middle of a pair keeps the straddling pair's odd row: lanes 64..127. -/
theorem keepOdd_apply (P : Vec Ideal S128x12x128 .f32) (Q : Vec Ideal S128x1x128 .f32) (p l : Fin 128) :
    k0_pay4 (F := Ideal) P Q (ix2 p l) = (∑ k : Fin 12, P (ix3 p k l)) + if l.val < 64 then 0 else Q (ix3 p 0 l) := by
  unfold k0_pay4
  dsimp only
  rw [addf_apply, select_apply, broadcast_apply, shapeCast_self, shapeCast_self, laneSum12, laneSum1, mask_apply]
  refine congrArg (_ + ·) ?_
  by_cases h : l.val < 64
  · rw [if_pos h, if_pos h]; exact Ideal.ofBits_zero_f32
  · rw [if_neg h, if_neg h]; rfl

/-- A segment of whole pairs only. -/
theorem plain_apply (P : Vec Ideal S128x25x128 .f32) (p l : Fin 128) :
    k0_pay7 (F := Ideal) P (ix2 p l) = ∑ k : Fin 25, P (ix3 p k l) := by
  unfold k0_pay7
  dsimp only
  rw [shapeCast_self, laneSum25]

/-- The seven segments are three forms: the later ones repeat the first two, the mask passed as an argument. -/
theorem pay5_eq (P : Vec Ideal S128x12x128 .f32) (Q : Vec Ideal S128x1x128 .f32) :
    k0_pay5 (F := Ideal) P Q = k0_pay3 P Q := rfl
theorem pay6_eq (P : Vec Ideal S128x12x128 .f32) (Q : Vec Ideal S128x1x128 .f32) :
    k0_pay6 (F := Ideal) k0_pay2 P Q = k0_pay4 P Q := rfl
theorem pay8_eq (P : Vec Ideal S128x12x128 .f32) (Q : Vec Ideal S128x1x128 .f32) :
    k0_pay8 (F := Ideal) k0_pay2 P Q = k0_pay3 P Q := rfl
theorem pay9_eq (P : Vec Ideal S128x12x128 .f32) (Q : Vec Ideal S128x1x128 .f32) :
    k0_pay9 (F := Ideal) k0_pay2 P Q = k0_pay4 P Q := rfl

end Cert.SliceSum.Seg

end
-- ==== Proof.FoldConcat.lean ====
/-
  The body's last step, read at an entry. From the seven segments' packed partial sums S0 … S6 (each [128, 128]:
  the even rows' sums in lanes 0..63, the odd rows' in lanes 64..127) the body forms, for each of the eight bands,
  the sum of the band's segments, adds its two halves lane by lane into a [128, 64] piece, and joins the eight
  pieces along the columns. So the entry (p, 64 j + c) of the result is band j's sum at lane c plus the same at
  lane 64 + c.
-/
import proofs.«143137_j39462159515841_2_alg».proof.Proof.Gen.KernelIdeal.Skeleton
import Idealize.ShloMosaic.Lib.ValueIdx
import Idealize.ShloMosaic.Lib.Pipeline.Value

noncomputable section

namespace Cert.SliceSum.Fold

open Idealize.ShloMosaic Idealize.ShloMosaic.ValueIdx Cert.KernelIdeal Cert.KernelIdeal.Gen

variable (S0 S1 S2 S3 S4 S5 S6 : FVec Ideal S128x128 .f32)

/-- Band `n`'s packed sum: the sum of its consecutive segments, in the order the body adds them. -/
def bandSum : Fin 8 → FVec Ideal S128x128 .f32 := fun n => match n with
  | ⟨0, _⟩ => addf S0 S1
  | ⟨1, _⟩ => addf (addf S1 S2) S3
  | ⟨2, _⟩ => addf (addf S2 S3) S4
  | ⟨3, _⟩ => addf (addf (addf (addf (addf (addf S0 S1) S2) S3) S4) S5) S6
  | ⟨4, _⟩ => addf (addf S4 S5) S6
  | ⟨5, _⟩ => addf S5 S6
  | ⟨6, _⟩ => addf (addf (addf S0 S1) S2) S3
  | ⟨7, _⟩ => addf (addf S3 S4) S5

/-- Band `n`'s piece: its packed sum's two halves added. -/
def piece : Fin 8 → FVec Ideal S128x64 .f32 := fun n =>
  addf (extractStridedSlice S128x64 ![0, 0] (bandSum S0 S1 S2 S3 S4 S5 S6 n) slices_S128x128_o0_0_S128x64)
    (extractStridedSlice S128x64 ![0, 64] (bandSum S0 S1 S2 S3 S4 S5 S6 n) slices_S128x128_o0_64_S128x64)

/-- The stored value is the eight pieces joined along the columns. -/
theorem pay1_eq : k0_pay1 (F := Ideal) S0 S1 S2 S3 S4 S5 S6
    = concatenate S128x512 1 (List.ofFn fun n : Fin 8 => (⟨S128x64, piece S0 S1 S2 S3 S4 S5 S6 n⟩ : (s : Shape) × (s.Idx → _)))
        concatenates_S128x64_S128x64_S128x64_S128x64_S128x64_S128x64_S128x64_S128x64_S128x512_d1 := rfl

/-- The stored value at (p, 64 j + c): band `j`'s packed sum at lane `c` plus the same at lane `64 + c`. -/
theorem pay1_apply (p : Fin 128) (j : Fin 8) (c : Fin 64) :
    k0_pay1 (F := Ideal) S0 S1 S2 S3 S4 S5 S6 (ix2 p ⟨64 * j.val + c.val, by omega⟩)
      = bandSum S0 S1 S2 S3 S4 S5 S6 j (ix2 p ⟨c.val, by omega⟩)
        + bandSum S0 S1 S2 S3 S4 S5 S6 j (ix2 p ⟨64 + c.val, by omega⟩) := by
  rw [pay1_eq]
  refine (concatenate_ofFn_apply (t := S128x512) (s₁ := S128x64) (1 : Fin 2) (piece S0 S1 S2 S3 S4 S5 S6) _ rfl 64 rfl
    (ix2 p ⟨64 * j.val + c.val, by omega⟩) j (by show (64 * j.val + c.val) / 64 = j.val; omega)
    (ix2 p c) (by show c.val = (64 * j.val + c.val) % 64; omega)
    (fun b hb => by match b with | ⟨0, _⟩ => rfl | ⟨1, _⟩ => exact absurd rfl hb)).trans ?_
  unfold piece
  rw [addf_apply]
  rw [extractStridedSlice_apply ![0, 0] _ slices_S128x128_o0_0_S128x64 (ix2 p c) (ix2 p ⟨c.val, by omega⟩)
      (fun a => by match a with | ⟨0, _⟩ => show p.val = 0 + p.val; omega | ⟨1, _⟩ => show c.val = 0 + c.val; omega),
    extractStridedSlice_apply ![0, 64] _ slices_S128x128_o0_64_S128x64 (ix2 p c) (ix2 p ⟨64 + c.val, by omega⟩)
      (fun a => by match a with | ⟨0, _⟩ => show p.val = 0 + p.val; omega | ⟨1, _⟩ => show 64 + c.val = 64 + c.val; omega)]

end Cert.SliceSum.Fold

end
-- ==== Proof.LibPairedRowSums.lean ====
/-
  Rows stored in pairs, summed half by half. A sequence of rows f 0, f 1, … (values in any commutative additive
  monoid: no subtraction or cancelling is used, so the lemmas hold on the extended reals as they stand) is stored in
  pairs: pair k holds the even row f (2k) in one half and the odd row f (2k+1) in the other. Summing a run of whole
  pairs half by half and adding the two halves gives the sum of f over the run's rows (`evens_add_odds`); a run that
  ends or starts in the middle of a pair takes the one row it needs from the straddling pair into the matching half
  and a zero into the other (`seg_tail`, `seg_head`). Several such runs added half by half and folded once at the end
  give the sum of the runs' sums (`fold2` … `fold7`), and consecutive runs of rows join into one (`join` … `join7`).
-/
import Mathlib.Algebra.BigOperators.Intervals
import Mathlib.Tactic.Abel
import Mathlib.Tactic.Ring

namespace Cert.SliceSum.Alg

open Finset

variable {M : Type*} [AddCommMonoid M] (f : ℕ → M)

/-- The even rows of the `n` pairs from pair `o` on. -/
def evens (o n : ℕ) : M := ∑ k ∈ range n, f (2 * (o + k))

/-- The odd rows of the `n` pairs from pair `o` on. -/
def odds (o n : ℕ) : M := ∑ k ∈ range n, f (2 * (o + k) + 1)

/-- Whole pairs: the two halves together are the rows `2 o ≤ r < 2 (o + n)`. -/
theorem evens_add_odds (o n : ℕ) : evens f o n + odds f o n = ∑ r ∈ Ico (2 * o) (2 * (o + n)), f r := by
  induction n with
  | zero => simp [evens, odds]
  | succ n ih =>
    unfold evens odds at ih ⊢
    rw [sum_range_succ, sum_range_succ]
    have e : 2 * (o + (n + 1)) = 2 * (o + n) + 1 + 1 := by ring
    rw [e, sum_Ico_succ_top (by omega), sum_Ico_succ_top (by omega), ← ih]
    abel

/-- A run ending in the middle of pair `o + n`: its even row goes to the even half. -/
theorem seg_tail (o n : ℕ) :
    (evens f o n + f (2 * (o + n))) + (odds f o n + 0) = ∑ r ∈ Ico (2 * o) (2 * (o + n) + 1), f r := by
  rw [sum_Ico_succ_top (by omega), ← evens_add_odds]
  abel

/-- A run starting in the middle of pair `o`: its odd row goes to the odd half. -/
theorem seg_head (o n : ℕ) :
    (evens f (o + 1) n + 0) + (odds f (o + 1) n + f (2 * o + 1)) = ∑ r ∈ Ico (2 * o + 1) (2 * (o + 1 + n)), f r := by
  have e : 2 * o + 1 + 1 = 2 * (o + 1) := by ring
  rw [sum_eq_sum_Ico_succ_bot (by omega), e, ← evens_add_odds f (o + 1) n]
  abel

/-! ## Adding segments half by half, then folding -/

section Fold
variable {a0 a1 a2 a3 a4 a5 a6 b0 b1 b2 b3 b4 b5 b6 s0 s1 s2 s3 s4 s5 s6 : M}

theorem fold2 (h0 : a0 + b0 = s0) (h1 : a1 + b1 = s1) : (a0 + a1) + (b0 + b1) = s0 + s1 := by
  rw [← h0, ← h1]; abel

theorem fold3 (h0 : a0 + b0 = s0) (h1 : a1 + b1 = s1) (h2 : a2 + b2 = s2) :
    ((a0 + a1) + a2) + ((b0 + b1) + b2) = s0 + s1 + s2 := by
  rw [← h0, ← h1, ← h2]; abel

theorem fold4 (h0 : a0 + b0 = s0) (h1 : a1 + b1 = s1) (h2 : a2 + b2 = s2) (h3 : a3 + b3 = s3) :
    (((a0 + a1) + a2) + a3) + (((b0 + b1) + b2) + b3) = s0 + s1 + s2 + s3 := by
  rw [← h0, ← h1, ← h2, ← h3]; abel

theorem fold7 (h0 : a0 + b0 = s0) (h1 : a1 + b1 = s1) (h2 : a2 + b2 = s2) (h3 : a3 + b3 = s3) (h4 : a4 + b4 = s4)
    (h5 : a5 + b5 = s5) (h6 : a6 + b6 = s6) :
    ((((((a0 + a1) + a2) + a3) + a4) + a5) + a6) + ((((((b0 + b1) + b2) + b3) + b4) + b5) + b6)
      = s0 + s1 + s2 + s3 + s4 + s5 + s6 := by
  rw [← h0, ← h1, ← h2, ← h3, ← h4, ← h5, ← h6]; abel

end Fold

/-- Consecutive runs of rows add up to the run over their union. -/
theorem join {a b c : ℕ} (hab : a ≤ b) (hbc : b ≤ c) :
    (∑ r ∈ Ico a b, f r) + ∑ r ∈ Ico b c, f r = ∑ r ∈ Ico a c, f r := sum_Ico_consecutive f hab hbc

theorem join3 {a b c d : ℕ} (h1 : a ≤ b) (h2 : b ≤ c) (h3 : c ≤ d) :
    (∑ r ∈ Ico a b, f r) + (∑ r ∈ Ico b c, f r) + ∑ r ∈ Ico c d, f r = ∑ r ∈ Ico a d, f r := by
  rw [join f h1 h2, join f (h1.trans h2) h3]

theorem join4 {a b c d e : ℕ} (h1 : a ≤ b) (h2 : b ≤ c) (h3 : c ≤ d) (h4 : d ≤ e) :
    (∑ r ∈ Ico a b, f r) + (∑ r ∈ Ico b c, f r) + (∑ r ∈ Ico c d, f r) + ∑ r ∈ Ico d e, f r = ∑ r ∈ Ico a e, f r := by
  rw [join3 f h1 h2 h3, join f (h1.trans (h2.trans h3)) h4]

theorem join7 {a0 a1 a2 a3 a4 a5 a6 a7 : ℕ} (h1 : a0 ≤ a1) (h2 : a1 ≤ a2) (h3 : a2 ≤ a3) (h4 : a3 ≤ a4) (h5 : a4 ≤ a5)
    (h6 : a5 ≤ a6) (h7 : a6 ≤ a7) :
    (∑ r ∈ Ico a0 a1, f r) + (∑ r ∈ Ico a1 a2, f r) + (∑ r ∈ Ico a2 a3, f r) + (∑ r ∈ Ico a3 a4, f r)
      + (∑ r ∈ Ico a4 a5, f r) + (∑ r ∈ Ico a5 a6, f r) + ∑ r ∈ Ico a6 a7, f r = ∑ r ∈ Ico a0 a7, f r := by
  rw [join4 f h1 h2 h3 h4, join f (h1.trans (h2.trans (h3.trans h4))) h5,
    join f (h1.trans (h2.trans (h3.trans (h4.trans h5)))) h6,
    join f (h1.trans (h2.trans (h3.trans (h4.trans (h5.trans h6))))) h7]

end Cert.SliceSum.Alg
-- ==== Proof.SegmentAlgebra.lean ====
/-
  The seven segments of this kernel. The rows 0..199 are cut at 25, 50, 75, 100, 150, 175 into seven consecutive
  segments; stored in pairs, the cuts at 25, 75 and 175 fall in the middle of the pairs 12, 37 and 87. Each
  segment's two halves (the even rows' sum with the straddling even row or a zero, the odd rows' sum with the
  straddling odd row or a zero) add up to the sum over the segment's rows.
-/
import proofs.«143137_j39462159515841_2_alg».proof.Proof.LibPairedRowSums

namespace Cert.SliceSum.Alg

open Finset

variable {M : Type*} [AddCommMonoid M] (f : ℕ → M)

theorem seg0 : (evens f 0 12 + f 24) + (odds f 0 12 + 0) = ∑ r ∈ Ico 0 25, f r := seg_tail f 0 12
theorem seg1 : (evens f 13 12 + 0) + (odds f 13 12 + f 25) = ∑ r ∈ Ico 25 50, f r := seg_head f 12 12
theorem seg2 : (evens f 25 12 + f 74) + (odds f 25 12 + 0) = ∑ r ∈ Ico 50 75, f r := seg_tail f 25 12
theorem seg3 : (evens f 38 12 + 0) + (odds f 38 12 + f 75) = ∑ r ∈ Ico 75 100, f r := seg_head f 37 12
theorem seg4 : evens f 50 25 + odds f 50 25 = ∑ r ∈ Ico 100 150, f r := evens_add_odds f 50 25
theorem seg5 : (evens f 75 12 + f 174) + (odds f 75 12 + 0) = ∑ r ∈ Ico 150 175, f r := seg_tail f 75 12
theorem seg6 : (evens f 88 12 + 0) + (odds f 88 12 + f 175) = ∑ r ∈ Ico 175 200, f r := seg_head f 87 12

end Cert.SliceSum.Alg
-- ==== Proof.KernelBlock.lean ====
/-
  What the body leaves in one output block, entry by entry. Fix a batch row p and a column c, and let the input
  block hold a row sequence f in packed form: entry (p, k, 64 h + c) is f (2 k + h). A load of the packed rows
  o .. o + n - 1 read at lane c gives the even rows f (2 (o + k)), read at lane 64 + c the odd rows f (2 (o + k) + 1);
  so each of the seven segments' packed sums has, at lane c and at lane 64 + c, the two halves whose sum is the sum
  of f over the segment's rows; the entry (p, 64 j + c) of the block adds band j's segments half by half and then the
  two halves, which is the sum of f over band j's rows.
-/
import proofs.«143137_j39462159515841_2_alg».proof.Proof.BlockStatement
import proofs.«143137_j39462159515841_2_alg».proof.Proof.SegmentValue
import proofs.«143137_j39462159515841_2_alg».proof.Proof.FoldConcat
import proofs.«143137_j39462159515841_2_alg».proof.Proof.SegmentAlgebra

noncomputable section

namespace Cert.SliceSum.Block

open Idealize.ShloMosaic Idealize.ShloMosaic.ValueIdx Cert.KernelIdeal Cert.KernelIdeal.Gen Cert.SliceSum

section Halves

variable (B : Vec Ideal S128x100x128 .f32) (p : Fin 128) (c : Fin 64) (f : ℕ → EReal)
  (hB : ∀ (k : Fin 100) (h : Fin 2), B (ix3 p k ⟨64 * h.val + c.val, by omega⟩) = f (2 * k.val + h.val))

include hB

/-- A load of the packed rows from `o` on, read at (p, k, l) with lane l = 64 h + c: the row 2 (o + k) + h. -/
theorem ld_row (o n : ℕ) (inb : ∀ a, (![0, o, 0] : Fin 3 → ℕ) a + (⟨3, ![128, n, 128]⟩ : Shape).size a ≤ S128x100x128.size a)
    (hon : o + n ≤ 100) (k : Fin n) (h : Fin 2) (l : Fin 128) (hl : l.val = 64 * h.val + c.val) :
    View.ld B (Rect.unit (s := S128x100x128) ![0, o, 0] (⟨3, ![128, n, 128]⟩ : Shape).size inb) (ix3 p k l)
      = f (2 * (o + k.val) + h.val) := by
  have hlt : 64 * h.val + c.val < 128 := by clear hl; omega
  obtain rfl : l = ⟨64 * h.val + c.val, hlt⟩ := Fin.ext hl
  refine Eq.trans ?_ (hB ⟨o + k.val, by omega⟩ h)
  refine congrArg B (funext fun a => Fin.ext ?_)
  match a with
  | ⟨0, _⟩ => show 0 + 1 * p.val = p.val; omega
  | ⟨1, _⟩ => show o + 1 * k.val = o + k.val; omega
  | ⟨2, _⟩ => show 0 + 1 * (64 * h.val + c.val) = 64 * h.val + c.val; omega

/-- A run of `n` packed rows from `o` on, summed at lane `c`: the even rows. -/
theorem run_even (o n : ℕ) (inb : ∀ a, (![0, o, 0] : Fin 3 → ℕ) a + (⟨3, ![128, n, 128]⟩ : Shape).size a ≤ S128x100x128.size a)
    (hon : o + n ≤ 100) (l : Fin 128) (hl : l.val = c.val) :
    ∑ k : Fin n, View.ld B (Rect.unit (s := S128x100x128) ![0, o, 0] (⟨3, ![128, n, 128]⟩ : Shape).size inb) (ix3 p k l)
      = Alg.evens f o n := by
  unfold Alg.evens
  rw [← Fin.sum_univ_eq_sum_range (fun k => f (2 * (o + k))) n]
  exact Finset.sum_congr rfl fun k _ => ld_row B p c f hB o n inb hon k 0 l (by rw [hl]; show c.val = 64 * 0 + c.val; omega)

/-- The same at lane `64 + c`: the odd rows. -/
theorem run_odd (o n : ℕ) (inb : ∀ a, (![0, o, 0] : Fin 3 → ℕ) a + (⟨3, ![128, n, 128]⟩ : Shape).size a ≤ S128x100x128.size a)
    (hon : o + n ≤ 100) (l : Fin 128) (hl : l.val = 64 + c.val) :
    ∑ k : Fin n, View.ld B (Rect.unit (s := S128x100x128) ![0, o, 0] (⟨3, ![128, n, 128]⟩ : Shape).size inb) (ix3 p k l)
      = Alg.odds f o n := by
  unfold Alg.odds
  rw [← Fin.sum_univ_eq_sum_range (fun k => f (2 * (o + k) + 1)) n]
  exact Finset.sum_congr rfl fun k _ => ld_row B p c f hB o n inb hon k 1 l (by rw [hl]; show 64 + c.val = 64 * 1 + c.val; omega)

/-- The one packed row `e` at lane `c`: the even row `2 e`. -/
theorem one_even (e : ℕ) (inb : ∀ a, (![0, e, 0] : Fin 3 → ℕ) a + S128x1x128.size a ≤ S128x100x128.size a)
    (he : e + 1 ≤ 100) (l : Fin 128) (hl : l.val = c.val) :
    View.ld B (Rect.unit (s := S128x100x128) ![0, e, 0] S128x1x128.size inb) (ix3 p 0 l) = f (2 * e) :=
  ld_row B p c f hB e 1 inb he 0 0 l (by rw [hl]; show c.val = 64 * 0 + c.val; omega)

/-- The one packed row `e` at lane `64 + c`: the odd row `2 e + 1`. -/
theorem one_odd (e : ℕ) (inb : ∀ a, (![0, e, 0] : Fin 3 → ℕ) a + S128x1x128.size a ≤ S128x100x128.size a)
    (he : e + 1 ≤ 100) (l : Fin 128) (hl : l.val = 64 + c.val) :
    View.ld B (Rect.unit (s := S128x100x128) ![0, e, 0] S128x1x128.size inb) (ix3 p 0 l) = f (2 * e + 1) :=
  ld_row B p c f hB e 1 inb he 0 1 l (by rw [hl]; show 64 + c.val = 64 * 1 + c.val; omega)

/-! ### The three forms of a segment's packed sum, at lane `c` and at lane `64 + c` -/

theorem segEven_lo (o e : ℕ) (inbP : ∀ a, (![0, o, 0] : Fin 3 → ℕ) a + S128x12x128.size a ≤ S128x100x128.size a)
    (inbQ : ∀ a, (![0, e, 0] : Fin 3 → ℕ) a + S128x1x128.size a ≤ S128x100x128.size a)
    (ho : o + 12 ≤ 100) (he : e + 1 ≤ 100) (l : Fin 128) (hl : l.val = c.val) :
    k0_pay3 (F := Ideal) (View.ld B (Rect.unit (s := S128x100x128) ![0, o, 0] S128x12x128.size inbP))
        (View.ld B (Rect.unit (s := S128x100x128) ![0, e, 0] S128x1x128.size inbQ)) (ix2 p l)
      = Alg.evens f o 12 + f (2 * e) := by
  rw [Seg.keepEven_apply, if_pos (by rw [hl]; exact c.isLt)]
  exact congrArg₂ (· + ·) (run_even B p c f hB o 12 inbP ho l hl) (one_even B p c f hB e inbQ he l hl)

theorem segEven_hi (o e : ℕ) (inbP : ∀ a, (![0, o, 0] : Fin 3 → ℕ) a + S128x12x128.size a ≤ S128x100x128.size a)
    (inbQ : ∀ a, (![0, e, 0] : Fin 3 → ℕ) a + S128x1x128.size a ≤ S128x100x128.size a)
    (ho : o + 12 ≤ 100) (l : Fin 128) (hl : l.val = 64 + c.val) :
    k0_pay3 (F := Ideal) (View.ld B (Rect.unit (s := S128x100x128) ![0, o, 0] S128x12x128.size inbP))
        (View.ld B (Rect.unit (s := S128x100x128) ![0, e, 0] S128x1x128.size inbQ)) (ix2 p l)
      = Alg.odds f o 12 + 0 := by
  rw [Seg.keepEven_apply, if_neg (by rw [hl]; omega)]
  exact congrArg (· + 0) (run_odd B p c f hB o 12 inbP ho l hl)

theorem segOdd_lo (o e : ℕ) (inbP : ∀ a, (![0, o, 0] : Fin 3 → ℕ) a + S128x12x128.size a ≤ S128x100x128.size a)
    (inbQ : ∀ a, (![0, e, 0] : Fin 3 → ℕ) a + S128x1x128.size a ≤ S128x100x128.size a)
    (ho : o + 12 ≤ 100) (l : Fin 128) (hl : l.val = c.val) :
    k0_pay4 (F := Ideal) (View.ld B (Rect.unit (s := S128x100x128) ![0, o, 0] S128x12x128.size inbP))
        (View.ld B (Rect.unit (s := S128x100x128) ![0, e, 0] S128x1x128.size inbQ)) (ix2 p l)
      = Alg.evens f o 12 + 0 := by
  rw [Seg.keepOdd_apply, if_pos (by rw [hl]; exact c.isLt)]
  exact congrArg (· + 0) (run_even B p c f hB o 12 inbP ho l hl)

theorem segOdd_hi (o e : ℕ) (inbP : ∀ a, (![0, o, 0] : Fin 3 → ℕ) a + S128x12x128.size a ≤ S128x100x128.size a)
    (inbQ : ∀ a, (![0, e, 0] : Fin 3 → ℕ) a + S128x1x128.size a ≤ S128x100x128.size a)
    (ho : o + 12 ≤ 100) (he : e + 1 ≤ 100) (l : Fin 128) (hl : l.val = 64 + c.val) :
    k0_pay4 (F := Ideal) (View.ld B (Rect.unit (s := S128x100x128) ![0, o, 0] S128x12x128.size inbP))
        (View.ld B (Rect.unit (s := S128x100x128) ![0, e, 0] S128x1x128.size inbQ)) (ix2 p l)
      = Alg.odds f o 12 + f (2 * e + 1) := by
  rw [Seg.keepOdd_apply, if_neg (by rw [hl]; omega)]
  exact congrArg₂ (· + ·) (run_odd B p c f hB o 12 inbP ho l hl) (one_odd B p c f hB e inbQ he l hl)

theorem segPlain_lo (o : ℕ) (inbP : ∀ a, (![0, o, 0] : Fin 3 → ℕ) a + S128x25x128.size a ≤ S128x100x128.size a)
    (ho : o + 25 ≤ 100) (l : Fin 128) (hl : l.val = c.val) :
    k0_pay7 (F := Ideal) (View.ld B (Rect.unit (s := S128x100x128) ![0, o, 0] S128x25x128.size inbP)) (ix2 p l)
      = Alg.evens f o 25 := by
  rw [Seg.plain_apply]
  exact run_even B p c f hB o 25 inbP ho l hl

theorem segPlain_hi (o : ℕ) (inbP : ∀ a, (![0, o, 0] : Fin 3 → ℕ) a + S128x25x128.size a ≤ S128x100x128.size a)
    (ho : o + 25 ≤ 100) (l : Fin 128) (hl : l.val = 64 + c.val) :
    k0_pay7 (F := Ideal) (View.ld B (Rect.unit (s := S128x100x128) ![0, o, 0] S128x25x128.size inbP)) (ix2 p l)
      = Alg.odds f o 25 := by
  rw [Seg.plain_apply]
  exact run_odd B p c f hB o 25 inbP ho l hl

end Halves

theorem zero_offsets : (![0, 0] : Fin 2 → ℕ) = fun _ => 0 := funext fun a => by fin_cases a <;> rfl

/-- The block-level statement. -/
theorem blockValue : BlockValue := by
  intro B p j c f hB
  unfold out0_1
  rw [View.canon_unit_zero zero_offsets, Fold.pay1_apply, Seg.pay5_eq, Seg.pay6_eq, Seg.pay8_eq, Seg.pay9_eq]
  have a0 := segEven_lo B p c f hB 0 12 inb_S128x100x128_S128x12x128_0_0_0 inb_S128x100x128_S128x1x128_0_12_0
    (by norm_num) (by norm_num) ⟨c.val, by omega⟩ rfl
  have b0 := segEven_hi B p c f hB 0 12 inb_S128x100x128_S128x12x128_0_0_0 inb_S128x100x128_S128x1x128_0_12_0
    (by norm_num) ⟨64 + c.val, by omega⟩ rfl
  have a1 := segOdd_lo B p c f hB 13 12 inb_S128x100x128_S128x12x128_0_13_0 inb_S128x100x128_S128x1x128_0_12_0
    (by norm_num) ⟨c.val, by omega⟩ rfl
  have b1 := segOdd_hi B p c f hB 13 12 inb_S128x100x128_S128x12x128_0_13_0 inb_S128x100x128_S128x1x128_0_12_0
    (by norm_num) (by norm_num) ⟨64 + c.val, by omega⟩ rfl
  have a2 := segEven_lo B p c f hB 25 37 inb_S128x100x128_S128x12x128_0_25_0 inb_S128x100x128_S128x1x128_0_37_0
    (by norm_num) (by norm_num) ⟨c.val, by omega⟩ rfl
  have b2 := segEven_hi B p c f hB 25 37 inb_S128x100x128_S128x12x128_0_25_0 inb_S128x100x128_S128x1x128_0_37_0
    (by norm_num) ⟨64 + c.val, by omega⟩ rfl
  have a3 := segOdd_lo B p c f hB 38 37 inb_S128x100x128_S128x12x128_0_38_0 inb_S128x100x128_S128x1x128_0_37_0
    (by norm_num) ⟨c.val, by omega⟩ rfl
  have b3 := segOdd_hi B p c f hB 38 37 inb_S128x100x128_S128x12x128_0_38_0 inb_S128x100x128_S128x1x128_0_37_0
    (by norm_num) (by norm_num) ⟨64 + c.val, by omega⟩ rfl
  have a4 := segPlain_lo B p c f hB 50 inb_S128x100x128_S128x25x128_0_50_0 (by norm_num) ⟨c.val, by omega⟩ rfl
  have b4 := segPlain_hi B p c f hB 50 inb_S128x100x128_S128x25x128_0_50_0 (by norm_num) ⟨64 + c.val, by omega⟩ rfl
  have a5 := segEven_lo B p c f hB 75 87 inb_S128x100x128_S128x12x128_0_75_0 inb_S128x100x128_S128x1x128_0_87_0
    (by norm_num) (by norm_num) ⟨c.val, by omega⟩ rfl
  have b5 := segEven_hi B p c f hB 75 87 inb_S128x100x128_S128x12x128_0_75_0 inb_S128x100x128_S128x1x128_0_87_0
    (by norm_num) ⟨64 + c.val, by omega⟩ rfl
  have a6 := segOdd_lo B p c f hB 88 87 inb_S128x100x128_S128x12x128_0_88_0 inb_S128x100x128_S128x1x128_0_87_0
    (by norm_num) ⟨c.val, by omega⟩ rfl
  have b6 := segOdd_hi B p c f hB 88 87 inb_S128x100x128_S128x12x128_0_88_0 inb_S128x100x128_S128x1x128_0_87_0
    (by norm_num) (by norm_num) ⟨64 + c.val, by omega⟩ rfl
  obtain ⟨j, hj⟩ := j
  interval_cases j
  · simp only [Fold.bandSum, addf_apply]
    rw [a0, a1, b0, b1]
    exact (Alg.fold2 (Alg.seg0 f) (Alg.seg1 f)).trans (Alg.join f (by norm_num) (by norm_num))
  · simp only [Fold.bandSum, addf_apply]
    rw [a1, a2, a3, b1, b2, b3]
    exact (Alg.fold3 (Alg.seg1 f) (Alg.seg2 f) (Alg.seg3 f)).trans (Alg.join3 f (by norm_num) (by norm_num) (by norm_num))
  · simp only [Fold.bandSum, addf_apply]
    rw [a2, a3, a4, b2, b3, b4]
    exact (Alg.fold3 (Alg.seg2 f) (Alg.seg3 f) (Alg.seg4 f)).trans (Alg.join3 f (by norm_num) (by norm_num) (by norm_num))
  · simp only [Fold.bandSum, addf_apply]
    rw [a0, a1, a2, a3, a4, a5, a6, b0, b1, b2, b3, b4, b5, b6]
    exact (Alg.fold7 (Alg.seg0 f) (Alg.seg1 f) (Alg.seg2 f) (Alg.seg3 f) (Alg.seg4 f) (Alg.seg5 f) (Alg.seg6 f)).trans
      (Alg.join7 f (by norm_num) (by norm_num) (by norm_num) (by norm_num) (by norm_num) (by norm_num) (by norm_num))
  · simp only [Fold.bandSum, addf_apply]
    rw [a4, a5, a6, b4, b5, b6]
    exact (Alg.fold3 (Alg.seg4 f) (Alg.seg5 f) (Alg.seg6 f)).trans (Alg.join3 f (by norm_num) (by norm_num) (by norm_num))
  · simp only [Fold.bandSum, addf_apply]
    rw [a5, a6, b5, b6]
    exact (Alg.fold2 (Alg.seg5 f) (Alg.seg6 f)).trans (Alg.join f (by norm_num) (by norm_num))
  · simp only [Fold.bandSum, addf_apply]
    rw [a0, a1, a2, a3, b0, b1, b2, b3]
    exact (Alg.fold4 (Alg.seg0 f) (Alg.seg1 f) (Alg.seg2 f) (Alg.seg3 f)).trans
      (Alg.join4 f (by norm_num) (by norm_num) (by norm_num) (by norm_num))
  · simp only [Fold.bandSum, addf_apply]
    rw [a3, a4, a5, b3, b4, b5]
    exact (Alg.fold3 (Alg.seg3 f) (Alg.seg4 f) (Alg.seg5 f)).trans (Alg.join3 f (by norm_num) (by norm_num) (by norm_num))

end Cert.SliceSum.Block

end
-- ==== Proof.KernelArray.lean ====
/-
  From what each grid point writes to the whole result array.

  The program first repacks the argument X [4096, 200, 64] as P [4096, 100, 128]: packed row k of batch b holds original
  row 2k in lanes 0..63 and original row 2k+1 in lanes 64..127, so P (b, k, 64 h + c) = X (b, 2 k + h, c). The grid has 32
  points; point t reads rows 128 t .. 128 t + 127 of P as its input block and writes rows 128 t .. 128 t + 127 of the
  result [4096, 512] as its output block. Given what the body leaves in one output block in terms of the rows its input
  block holds (the hypothesis of type Cert.SliceSum.BlockValue), the block point t writes is block t of the one function
  Cert.SliceSum.G of X; the 32 blocks tile the result (batch row b lies in block b / 128), so the result array is G X.
-/
import proofs.«143137_j39462159515841_2_alg».proof.Proof.Gen.KernelIdeal.Value
import proofs.«143137_j39462159515841_2_alg».proof.Proof.BlockStatement
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.SliceSum.Kernel

open Cert.KernelIdeal Cert.KernelIdeal.Gen Cert.KernelIdeal.Value Cert.SliceSum

variable (m : (ℓ : Loc nD τ sig) → Buf (Elt Ideal) ℓ) (ρ : Dev nD → PrngReg)

/-- Where the blocks sit, decided over the 32 grid points: point t's input block is block (t, 0, 0) of the packed array
    and its output block is block (t, 0) of the result. -/
theorem block_index : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0 :=
  (by decide +kernel : ∀ t : Fin grid0.N, _)

/-- The packed array at (b, k, 64 h + c) is the argument at (b, 2 k + h, c): both indices have the same row-major
    position, ((200 b + 2 k + h) 64 + c) = ((100 b + k) 128 + 64 h + c). -/
theorem packed_apply (c : Dev nD) (b : Fin 4096) (k : Fin 100) (h : Fin 2) (c' : Fin 64) :
    (V m c main_v0 : S4096x100x128.Idx → EReal) (ix3 b k ⟨64 * h.val + c'.val, by omega⟩)
      = (m ((c : Thread nD τ).loc main_arg0) : S4096x200x64.Idx → EReal) (ix3 b ⟨2 * k.val + h.val, by omega⟩ c') := by
  have e : (V m c main_v0 : S4096x100x128.Idx → EReal)
      = shapeCast S4096x100x128 (m ((c : Thread nD τ).loc main_arg0)) shapeCasts_S4096x200x64_S4096x100x128 := by
    dsimp only [Gen.V, Gen.hostOps0]; after_results; rfl
  rw [e]
  refine shapeCast_apply (s := S4096x200x64) (t := S4096x100x128) _ _ _ _ ?_
  rw [Shape.rowMajor_val_three, Shape.rowMajor_val_three]
  show (b.val * 200 + (2 * k.val + h.val)) * 64 + c'.val = (b.val * 100 + k.val) * 128 + (64 * h.val + c'.val)
  omega

/-- The result function at (b, 64 j + c): the sum over band j's row range of column c of batch b. -/
theorem G_apply (X : SX.Idx → EReal) (b : Fin 4096) (j : Fin 8) (c' : Fin 64) :
    G X (ix2 b ⟨64 * j.val + c'.val, by omega⟩) = ∑ r ∈ Finset.Ico (lo j.val) (hi j.val), rowAt X b c' r := by
  have hj : (64 * j.val + c'.val) / 64 = j.val := by omega
  have hc : (⟨(64 * j.val + c'.val) % 64, Nat.mod_lt _ (by norm_num)⟩ : Fin 64) = c' :=
    Fin.ext (by show (64 * j.val + c'.val) % 64 = c'.val; omega)
  show ∑ r ∈ Finset.Ico (lo ((64 * j.val + c'.val) / 64)) (hi ((64 * j.val + c'.val) / 64)),
      rowAt X b ⟨(64 * j.val + c'.val) % 64, Nat.mod_lt _ (by norm_num)⟩ r = _
  rw [hj, hc]

/-- One entry of one output block. If row p of the input block B holds, packed, the rows of batch b of the argument
    (B (p, k, 64 h + c) = X (b, 2 k + h, c)), then the body leaves G X (b, 64 j + c) at (p, 64 j + c). -/
theorem block_entry (hblock : BlockValue) (X : SX.Idx → EReal) (B : Vec Ideal S128x100x128 .f32)
    (b : Fin 4096) (p : Fin 128) (j : Fin 8) (c' : Fin 64)
    (hB : ∀ (k : Fin 100) (h : Fin 2),
      B (ix3 p k ⟨64 * h.val + c'.val, by omega⟩) = X (ix3 b ⟨2 * k.val + h.val, by omega⟩ c')) :
    out0_1 (F := Ideal) B (ix2 p ⟨64 * j.val + c'.val, by omega⟩) = G X (ix2 b ⟨64 * j.val + c'.val, by omega⟩) := by
  rw [G_apply]
  refine hblock B p j c' (rowAt X b c') fun k h => ?_
  rw [hB k h]
  unfold rowAt
  rw [dif_pos (by omega)]

/-- Point t's input block at (p, k, l) is the packed array at (128 t + p, k, l). -/
theorem iblk_apply (c : Dev nD) (t : Fin cfg0.N) (p : Fin 128) (k : Fin 100) (l : Fin 128) (b : Fin 4096)
    (hb : b.val = 128 * t.val + p.val) :
    (iblk m c 0 t : Vec Ideal S128x100x128 .f32) (ix3 p k l) = (V m c main_v0 : S4096x100x128.Idx → EReal) (ix3 b k l) := by
  obtain ⟨e0, e1, e2, -, -⟩ := block_index t
  show V m c main_v0 (((cfg0.win 0).blk t).view.emb (ix3 p k l)) = _
  refine congrArg (V m c main_v0 : S4096x100x128.Idx → EReal) ?_
  funext a; apply Fin.ext
  match a with
  | ⟨0, _⟩ => show win0_0.index t (0 : Fin 3) * 128 + 1 * p.val = b.val; rw [e0, hb]; omega
  | ⟨1, _⟩ => show win0_0.index t (1 : Fin 3) * 100 + 1 * k.val = k.val; rw [e1]; omega
  | ⟨2, _⟩ => show win0_0.index t (2 : Fin 3) * 128 + 1 * l.val = l.val; rw [e2]; omega

/-- Where point t's output block sits: its entry (p, q) is the result's entry (128 t + p, q). -/
theorem oblk_emb (t : Fin cfg0.N) (p : Fin 128) (q : Fin 512) (b : Fin 4096) (hb : b.val = 128 * t.val + p.val) :
    ((cfg0.win 1).blk t).view.emb (ix2 p q) = (ix2 b q : S4096x512.Idx) := by
  obtain ⟨-, -, -, e3, e4⟩ := block_index t
  funext a; apply Fin.ext
  match a with
  | ⟨0, _⟩ => show win0_1.index t (0 : Fin 2) * 128 + 1 * p.val = b.val; rw [e3, hb]; omega
  | ⟨1, _⟩ => show win0_1.index t (1 : Fin 2) * 512 + 1 * q.val = q.val; rw [e4]; omega

/-- WHAT POINT t WRITES BACK is block t of G of the argument. -/
theorem flushed_eq (hblock : BlockValue) (c : Dev nD) (t : Fin cfg0.N) :
    (dats m 0 c).flushed 1 t
      = ((cfg0.win 1).blk t).view.read (Elt Ideal) (G (m ((c : Thread nD τ).loc main_arg0))) := by
  rw [Value.flushed1]
  funext y
  show out0_1 (iblk m c 0 t) y = G (m ((c : Thread nD τ).loc main_arg0)) (((cfg0.win 1).blk t).view.emb y)
  have hN : cfg0.N = 32 := N_0
  have ht : t.val < 32 := lt_of_lt_of_eq t.isLt hN
  have hy0 : (y 0).val < 128 := (y 0).isLt
  have hy1 : (y 1).val < 512 := (y 1).isLt
  -- the coordinates: batch row p of the block, band j, column c'
  have hy : y = ix2 (⟨(y 0).val, hy0⟩ : Fin 128)
      (⟨64 * (⟨(y 1).val / 64, by omega⟩ : Fin 8).val + (⟨(y 1).val % 64, by omega⟩ : Fin 64).val, by omega⟩ : Fin 512) := by
    funext a; apply Fin.ext
    match a with
    | ⟨0, _⟩ => rfl
    | ⟨1, _⟩ => show (y 1).val = 64 * ((y 1).val / 64) + (y 1).val % 64; omega
  rw [hy]
  rw [oblk_emb t ⟨(y 0).val, hy0⟩ _ ⟨128 * t.val + (y 0).val, by omega⟩ rfl]
  refine block_entry hblock _ (iblk m c 0 t) _ _ _ _ fun k h => ?_
  rw [iblk_apply m c t ⟨(y 0).val, hy0⟩ k _ ⟨128 * t.val + (y 0).val, by omega⟩ rfl]
  exact packed_apply m c _ k h _

/-- An index of the result is in point t's block iff each coordinate is in the block's range on its axis. -/
theorem mem_blk (t : Fin cfg0.N) (i : S4096x512.Idx) :
    i ∈ ((cfg0.win 1).blk t).view.set ↔ ∀ a : Fin 2, win0_1.index t a * S128x512.size a ≤ (i a).val
      ∧ (i a).val < win0_1.index t a * S128x512.size a + S128x512.size a := by
  show i ∈ ((View.whole main_v1).slice (win0_1.rect t)).set ↔ _
  rw [View.set_slice_whole, Rect.mem_set_unit]
  exact Iff.rfl

/-- The 32 output blocks tile the result: batch row b lies in the block of point b / 128. -/
theorem cover (i : S4096x512.Idx) :
    ∃ t : Fin cfg0.N, (cfg0.win 1).flush t = true ∧ i ∈ ((cfg0.win 1).blk t).view.set := by
  have hi0 : (i 0).val < 4096 := (i 0).isLt
  have hi1 : (i 1).val < 512 := (i 1).isLt
  have hN : cfg0.N = 32 := N_0
  have hlt : (i 0).val / 128 < cfg0.N := lt_of_lt_of_eq (by omega) hN.symm
  obtain ⟨-, -, -, e3, e4⟩ := block_index ⟨(i 0).val / 128, hlt⟩
  refine ⟨⟨(i 0).val / 128, hlt⟩, flush0_1 _, ?_⟩
  rw [mem_blk]
  intro a
  match a with
  | ⟨0, _⟩ =>
    show win0_1.index ⟨(i 0).val / 128, hlt⟩ (0 : Fin 2) * 128 ≤ (i 0).val
      ∧ (i 0).val < win0_1.index ⟨(i 0).val / 128, hlt⟩ (0 : Fin 2) * 128 + 128
    rw [e3]; show (i 0).val / 128 * 128 ≤ (i 0).val ∧ (i 0).val < (i 0).val / 128 * 128 + 128; omega
  | ⟨1, _⟩ =>
    show win0_1.index ⟨(i 0).val / 128, hlt⟩ (1 : Fin 2) * 512 ≤ (i 1).val
      ∧ (i 1).val < win0_1.index ⟨(i 0).val / 128, hlt⟩ (1 : Fin 2) * 512 + 512
    rw [e4]; omega

/-- THE RESULT ARRAY after the run is G of the argument. -/
theorem final (hblock : BlockValue) (c : Dev nD) :
    (dats m 0 c).arrAt 1 cfg0.N = G (m ((c : Thread nD τ).loc main_arg0)) :=
  (dats m 0 c).arrAt_eq_of_cover 1 (G (m ((c : Thread nD τ).loc main_arg0))) (fun t _ => flushed_eq m hblock c t) cover

/-- The run, read: the result array is G of the argument, the argument unchanged. -/
theorem run_of_block (hblock : Cert.SliceSum.BlockValue) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1) = Cert.SliceSum.G (m ((c : Thread nD τ).loc main_arg0))
      ∧ r.2.mem ((c : Thread nD τ).loc main_arg0) = m ((c : Thread nD τ).loc main_arg0) :=
  (θ_run defs _ _).mono (fun r h c => ⟨(h c).1.trans (final m hblock c), (h c).2⟩) (Value.run_blocks m ρ)

end Cert.SliceSum.Kernel

end
-- ==== Proof.RefValue.lean ====
/-
  The reference program's result, read index by index. The program cuts eight row ranges out of the argument
  X : [4096, 200, 64], sums each range over its rows into a [4096, 64] array, and joins the eight sums along the
  column axis into [4096, 512]. Here each of the eight sums is read at (b, c) as a sum of column c of batch b over
  an interval of rows, and the join is read at (b, q) as the sum number q / 64 at (b, q % 64): this is the function
  `G` of the specification.
-/
import proofs.«143137_j39462159515841_2_alg».proof.Proof.Gen.ReferenceIdeal.Read
import proofs.«143137_j39462159515841_2_alg».proof.Proof.SliceSpec
import Idealize.ShloMosaic.Lib.ValueIdx
import Idealize.ShloMosaic.Lib.Pipeline.Value
import Idealize.ShloMosaic.PureOps.Ideal.Laws

noncomputable section

namespace Cert.SliceSum.Ref

open Cert.ReferenceIdeal Cert.ReferenceIdeal.Read Cert.SliceSum
open Idealize.ShloMosaic Idealize.ShloMosaic.ValueIdx

/-- The argument's type, as the reference program's operations take it: a function from the indices of [4096, 200, 64]
    to the extended reals. -/
abbrev Arg : Type := (⟨S4096x200x64, .f32⟩ : BufTy).Contents (Elt Ideal)

/-- A sum over `n` consecutive rows starting at row `s`, however its `k`-th index is written, is the sum of the
    column over the interval [s, s + n) of rows. -/
theorem sum_rows (X : Arg) (b : Fin 4096) (c : Fin 64) (s n : ℕ) (hsn : s + n ≤ 200)
    (g : Fin n → S4096x200x64.Idx)
    (hg : ∀ k : Fin n, g k = ix3 b ⟨s + k.val, by have := k.isLt; omega⟩ c) :
    ∑ k : Fin n, X (g k) = ∑ r ∈ Finset.Ico s (s + n), rowAt X b c r := by
  rw [Finset.sum_Ico_eq_sum_range, Nat.add_sub_cancel_left,
    ← Fin.sum_univ_eq_sum_range (fun k => rowAt X b c (s + k)) n]
  refine Finset.sum_congr rfl fun k _ => ?_
  have hk : s + k.val < 200 := by have := k.isLt; omega
  rw [hg k]
  unfold rowAt
  rw [dif_pos hk]

/-- Band 0: rows [0, 50). -/
theorem band0 (X : Arg) (b : Fin 4096) (c : Fin 64) :
    val_main_v1 (F := Ideal) X (ix2 b c) = ∑ r ∈ Finset.Ico 0 50, rowAt X b c r := by
  rw [val_main_v1_apply, val_main_cst_apply]
  show Ideal.ofBits .f32 0x00000000#32 + _ = _
  rw [Ideal.ofBits_zero_f32, zero_add]
  simp only [val_main_v0_apply]
  exact sum_rows X b c 0 50 (by norm_num) _ (fun k => funext fun a => Fin.ext (by
    match a with
    | ⟨0, _⟩ => rfl
    | ⟨1, _⟩ => show k.val = 0 + k.val; omega
    | ⟨2, _⟩ => rfl))

/-- Band 1: rows [25, 100). -/
theorem band1 (X : Arg) (b : Fin 4096) (c : Fin 64) :
    val_main_v3 (F := Ideal) X (ix2 b c) = ∑ r ∈ Finset.Ico 25 100, rowAt X b c r := by
  rw [val_main_v3_apply, val_main_cst_0_apply]
  show Ideal.ofBits .f32 0x00000000#32 + _ = _
  rw [Ideal.ofBits_zero_f32, zero_add]
  simp only [val_main_v2_apply]
  exact sum_rows X b c 25 75 (by norm_num) _ (fun k => funext fun a => Fin.ext (by
    match a with
    | ⟨0, _⟩ => rfl
    | ⟨1, _⟩ => show 25 + k.val = 25 + k.val; omega
    | ⟨2, _⟩ => rfl))

/-- Band 2: rows [50, 150). -/
theorem band2 (X : Arg) (b : Fin 4096) (c : Fin 64) :
    val_main_v5 (F := Ideal) X (ix2 b c) = ∑ r ∈ Finset.Ico 50 150, rowAt X b c r := by
  rw [val_main_v5_apply, val_main_cst_1_apply]
  show Ideal.ofBits .f32 0x00000000#32 + _ = _
  rw [Ideal.ofBits_zero_f32, zero_add]
  simp only [val_main_v4_apply]
  exact sum_rows X b c 50 100 (by norm_num) _ (fun k => funext fun a => Fin.ext (by
    match a with
    | ⟨0, _⟩ => rfl
    | ⟨1, _⟩ => show 50 + k.val = 50 + k.val; omega
    | ⟨2, _⟩ => rfl))

/-- Band 3: rows [0, 200). This one sums the argument itself: no range is cut out first. -/
theorem band3 (X : Arg) (b : Fin 4096) (c : Fin 64) :
    val_main_v6 (F := Ideal) X (ix2 b c) = ∑ r ∈ Finset.Ico 0 200, rowAt X b c r := by
  rw [val_main_v6_apply, val_main_cst_2_apply]
  show Ideal.ofBits .f32 0x00000000#32 + _ = _
  rw [Ideal.ofBits_zero_f32, zero_add]
  exact sum_rows X b c 0 200 (by norm_num) _ (fun k => funext fun a => Fin.ext (by
    match a with
    | ⟨0, _⟩ => rfl
    | ⟨1, _⟩ => show k.val = 0 + k.val; omega
    | ⟨2, _⟩ => rfl))

/-- Band 4: rows [100, 200). -/
theorem band4 (X : Arg) (b : Fin 4096) (c : Fin 64) :
    val_main_v8 (F := Ideal) X (ix2 b c) = ∑ r ∈ Finset.Ico 100 200, rowAt X b c r := by
  rw [val_main_v8_apply, val_main_cst_3_apply]
  show Ideal.ofBits .f32 0x00000000#32 + _ = _
  rw [Ideal.ofBits_zero_f32, zero_add]
  simp only [val_main_v7_apply]
  exact sum_rows X b c 100 100 (by norm_num) _ (fun k => funext fun a => Fin.ext (by
    match a with
    | ⟨0, _⟩ => rfl
    | ⟨1, _⟩ => show 100 + k.val = 100 + k.val; omega
    | ⟨2, _⟩ => rfl))

/-- Band 5: rows [150, 200). -/
theorem band5 (X : Arg) (b : Fin 4096) (c : Fin 64) :
    val_main_v10 (F := Ideal) X (ix2 b c) = ∑ r ∈ Finset.Ico 150 200, rowAt X b c r := by
  rw [val_main_v10_apply, val_main_cst_4_apply]
  show Ideal.ofBits .f32 0x00000000#32 + _ = _
  rw [Ideal.ofBits_zero_f32, zero_add]
  simp only [val_main_v9_apply]
  exact sum_rows X b c 150 50 (by norm_num) _ (fun k => funext fun a => Fin.ext (by
    match a with
    | ⟨0, _⟩ => rfl
    | ⟨1, _⟩ => show 150 + k.val = 150 + k.val; omega
    | ⟨2, _⟩ => rfl))

/-- Band 6: rows [0, 100). -/
theorem band6 (X : Arg) (b : Fin 4096) (c : Fin 64) :
    val_main_v12 (F := Ideal) X (ix2 b c) = ∑ r ∈ Finset.Ico 0 100, rowAt X b c r := by
  rw [val_main_v12_apply, val_main_cst_5_apply]
  show Ideal.ofBits .f32 0x00000000#32 + _ = _
  rw [Ideal.ofBits_zero_f32, zero_add]
  simp only [val_main_v11_apply]
  exact sum_rows X b c 0 100 (by norm_num) _ (fun k => funext fun a => Fin.ext (by
    match a with
    | ⟨0, _⟩ => rfl
    | ⟨1, _⟩ => show k.val = 0 + k.val; omega
    | ⟨2, _⟩ => rfl))

/-- Band 7: rows [75, 175). -/
theorem band7 (X : Arg) (b : Fin 4096) (c : Fin 64) :
    val_main_v14 (F := Ideal) X (ix2 b c) = ∑ r ∈ Finset.Ico 75 175, rowAt X b c r := by
  rw [val_main_v14_apply, val_main_cst_6_apply]
  show Ideal.ofBits .f32 0x00000000#32 + _ = _
  rw [Ideal.ofBits_zero_f32, zero_add]
  simp only [val_main_v13_apply]
  exact sum_rows X b c 75 100 (by norm_num) _ (fun k => funext fun a => Fin.ext (by
    match a with
    | ⟨0, _⟩ => rfl
    | ⟨1, _⟩ => show 75 + k.val = 75 + k.val; omega
    | ⟨2, _⟩ => rfl))

/-- The eight sums in the order in which they are joined. -/
def Fam (X : Arg) : Fin 8 → (S4096x64.Idx → EReal) := fun n => match n with
  | ⟨0, _⟩ => val_main_v1 (F := Ideal) X
  | ⟨1, _⟩ => val_main_v3 (F := Ideal) X
  | ⟨2, _⟩ => val_main_v5 (F := Ideal) X
  | ⟨3, _⟩ => val_main_v6 (F := Ideal) X
  | ⟨4, _⟩ => val_main_v8 (F := Ideal) X
  | ⟨5, _⟩ => val_main_v10 (F := Ideal) X
  | ⟨6, _⟩ => val_main_v12 (F := Ideal) X
  | ⟨7, _⟩ => val_main_v14 (F := Ideal) X

/-- Sum number `n` at (b, c) is the sum of column c of batch b over band `n`'s row range. -/
theorem fam_apply (X : Arg) (n : Fin 8) (b : Fin 4096) (c : Fin 64) :
    Fam X n (ix2 b c) = ∑ r ∈ Finset.Ico (lo n.val) (hi n.val), rowAt X b c r := by
  match n with
  | ⟨0, _⟩ => exact band0 X b c
  | ⟨1, _⟩ => exact band1 X b c
  | ⟨2, _⟩ => exact band2 X b c
  | ⟨3, _⟩ => exact band3 X b c
  | ⟨4, _⟩ => exact band4 X b c
  | ⟨5, _⟩ => exact band5 X b c
  | ⟨6, _⟩ => exact band6 X b c
  | ⟨7, _⟩ => exact band7 X b c

/-- The join of the eight sums along the column axis, read at (b, q): sum number q / 64 at (b, q % 64). -/
theorem cat_apply (X : Arg) (i : S4096x512.Idx) (hn : (i 1).val / 64 < 8) (hc : (i 1).val % 64 < 64) :
    val_main_v15 (F := Ideal) X i = Fam X ⟨(i 1).val / 64, hn⟩ (ix2 (i 0) ⟨(i 1).val % 64, hc⟩) := by
  unfold val_main_v15
  show concatenate S4096x512 1 (List.ofFn fun n : Fin 8 => (⟨S4096x64, Fam X n⟩ : (s : Shape) × (s.Idx → _))) _ i = _
  exact concatenate_ofFn_apply (t := S4096x512) (s₁ := S4096x64) (1 : Fin 2) (Fam X) _ rfl 64 rfl i
    ⟨(i 1).val / 64, hn⟩ rfl (ix2 (i 0) ⟨(i 1).val % 64, hc⟩) rfl
    (fun b hb => by match b with | ⟨0, _⟩ => rfl | ⟨1, _⟩ => exact absurd rfl hb)

/-- The reference program computes the specification's function `G`. -/
theorem ref_eq (X : (⟨Cert.ReferenceIdeal.S4096x200x64, .f32⟩ : BufTy).Contents (Elt Ideal)) :
    Cert.ReferenceIdeal.Read.val_main_v15 (F := Ideal) X = Cert.SliceSum.G X := by
  funext (i : S4096x512.Idx)
  have hq : (i 1).val < 512 := (i 1).isLt
  have hn : (i 1).val / 64 < 8 := by omega
  have hc : (i 1).val % 64 < 64 := Nat.mod_lt _ (by norm_num)
  rw [cat_apply X i hn hc]
  exact fam_apply X ⟨(i 1).val / 64, hn⟩ (i 0) ⟨(i 1).val % 64, hc⟩

end Cert.SliceSum.Ref

end
-- ==== Proof.lean ====
/-
  The kernel and the reference compute the same array, entry by entry, on the extended reals.

  The argument X has shape [4096, 200, 64] (batch, row, column); the result has shape [4096, 512], eight bands of 64
  columns; band j at (b, 64 j + c) is the sum of X (b, r, c) over the rows r of the j-th of the row ranges
  (0,50) (25,100) (50,150) (0,200) (100,200) (150,200) (0,100) (75,175)  (Proof/SliceSpec.lean: G).

  The reference slices each range out of X, sums it over the row axis from zero, and joins the eight sums along
  the columns (Proof/RefValue.lean: its result is G X).

  The kernel views X as [4096, 100, 128] — packed row k holds row 2k in lanes 0..63 and row 2k+1 in lanes
  64..127 —, and on each block of 128 batch rows sums seven disjoint segments of packed rows (cut at rows 0, 25, 50, 75,
  100, 150, 175, 200; a segment that starts or ends in the middle of a pair takes that pair's odd or even row by a lane
  mask), adds the segments of each band, adds the two halves of the lanes, and joins the eight bands
  (Proof/SegmentValue.lean: a segment's packed sum at an entry; Proof/FoldConcat.lean: the joined bands at an entry;
  Proof/SegmentAlgebra.lean: the halves of consecutive segments add up to the sum over the union of their rows, in any
  commutative monoid; Proof/KernelBlock.lean: a block of the result, entry by entry; Proof/KernelArray.lean: the 32 blocks
  tile the result, which is G X).

  Only commutativity and associativity of addition and x + 0 = x are used, so the equality holds at infinite entries as
  well and the precondition is never opened. The frames are the generated ones; the reference's is its generated run with
  the result dropped; the idealization rewrote nothing, so there is nothing to preserve.
-/
import proofs.«143137_j39462159515841_2_alg».proof.Defs
import proofs.«143137_j39462159515841_2_alg».proof.Proof.Gen.Kernel
import proofs.«143137_j39462159515841_2_alg».proof.Proof.Gen.Kernel.Skeleton
import proofs.«143137_j39462159515841_2_alg».proof.Proof.Gen.Kernel.Launch
import proofs.«143137_j39462159515841_2_alg».proof.Proof.Gen.Kernel.Points
import proofs.«143137_j39462159515841_2_alg».proof.Proof.Gen.Kernel.Frame
import proofs.«143137_j39462159515841_2_alg».proof.Proof.Gen.KernelIdeal
import proofs.«143137_j39462159515841_2_alg».proof.Proof.Gen.KernelIdeal.Skeleton
import proofs.«143137_j39462159515841_2_alg».proof.Proof.Gen.KernelIdeal.Launch
import proofs.«143137_j39462159515841_2_alg».proof.Proof.Gen.KernelIdeal.Points
import proofs.«143137_j39462159515841_2_alg».proof.Proof.Gen.KernelIdeal.Frame
import proofs.«143137_j39462159515841_2_alg».proof.Proof.Gen.ReferenceIdeal
import proofs.«143137_j39462159515841_2_alg».proof.Proof.Gen.Pre_finite_inputs
import proofs.«143137_j39462159515841_2_alg».proof.Proof.Gen.KernelIdeal.Value
import proofs.«143137_j39462159515841_2_alg».proof.Proof.Gen.ReferenceIdeal.Run
import proofs.«143137_j39462159515841_2_alg».proof.Proof.Gen.ReferenceIdeal.Read
import proofs.«143137_j39462159515841_2_alg».proof.Proof.KernelBlock
import proofs.«143137_j39462159515841_2_alg».proof.Proof.KernelArray
import proofs.«143137_j39462159515841_2_alg».proof.Proof.RefValue
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- Both programs end with the result array at `G` of the argument: the kernel block by block, the reference
    operation by operation; the arguments agree, so the results do. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.SliceSum.Kernel.run_of_block Cert.SliceSum.Block.blockValue m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.SliceSum.Ref.ref_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
